-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_arg4 : FVec F S128 .f32) (main_arg5 : FVec F S128x256 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S100000x128 .f32) (main_arg2 : FVec F S1600000 .f32) (main_arg3 : FVec F S128x128 .f32) (main_arg4 : FVec F S128 .f32) (main_arg5 : FVec F S128x256 .f32) (main_arg6 : FVec F S128 .f32) (main_arg7 : IVec S1600000 32) (main_arg8 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S1600000 .f32 := Host.absf main_arg2
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S5000x128 : Shape := ⟨2, ![5000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S5000x1 : Shape := ⟨2, ![5000, 1]⟩
abbrev S5000 : Shape := ⟨1, ![5000]⟩

abbrev nBuf : Space → Nat
  | .hbm => 34
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S1600000, .i32⟩
  | .hbm, ⟨8, _⟩ => ⟨S1600000, .i32⟩
  | .hbm, ⟨9, _⟩ => ⟨S100000x128, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x1, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S100000x1, .f32⟩
  | .hbm, ⟨31, _⟩ => ⟨S128x128, .f32⟩
  | .hbm, ⟨32, _⟩ => ⟨S128x128, .f32⟩
  | .hbm, ⟨33, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S128x128, .f32⟩
  | .local _ .vmem, ⟨14, _⟩ => ⟨S128, .f32⟩
  | .local _ .vmem, ⟨15, _⟩ => ⟨S5000x128, .f32⟩
  | .local _ .vmem, ⟨16, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  slices_S128x256_S128x128_0_0 : S128x256.Slices ![0, 0] S128x128
  slices_S128x256_S128x128_0_128 : S128x256.Slices ![0, 128] S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  shapeCasts_S128x128_S128x128 : S128x128.ShapeCasts S128x128
  reduces_S5000x128_S5000 : S5000x128.Reduces [1] S5000
  shapeCasts_S5000_S5000x1 : S5000.ShapeCasts S5000x1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x256 : Shape := ⟨2, ![100000, 256]⟩
abbrev S256x128 : Shape := ⟨2, ![256, 128]⟩

abbrev nBuf : Space → Nat
  | .hbm => 66
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S1600000, .i32⟩
  | .hbm, ⟨8, _⟩ => ⟨S1600000, .i32⟩
  | .hbm, ⟨9, _⟩ => ⟨S128x128, .f32⟩
  | .hbm, ⟨10, _⟩ => ⟨S100000x128, .f32⟩
  | .hbm, ⟨11, _⟩ => ⟨S1x128, .f32⟩
  | .hbm, ⟨12, _⟩ => ⟨S100000x128, .f32⟩
  | .hbm, ⟨13, _⟩ => ⟨S100000x128, .f32⟩
  | .hbm, ⟨14, _⟩ => ⟨S_, .f32⟩
  | .hbm, ⟨15, _⟩ => ⟨S100000x128, .f32⟩
  | .hbm, ⟨16, _⟩ => ⟨S100000x128, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S1600000x1, .f32⟩
  | .hbm, ⟨27, _⟩ => ⟨S1600000x128, .f32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S_, .f32⟩
  | .hbm, ⟨34, _⟩ => ⟨S100000, .f32⟩
  | .hbm, ⟨35, _⟩ => ⟨S1600000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S100000x256, .f32⟩
  | .hbm, ⟨44, _⟩ => ⟨S256x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000, .f32⟩
  | .hbm, ⟨55, _⟩ => ⟨S100000x1, .f32⟩
  | .hbm, ⟨56, _⟩ => ⟨S100000x1, .f32⟩
  | .hbm, ⟨57, _⟩ => ⟨S_, .f32⟩
  | .hbm, ⟨58, _⟩ => ⟨S100000x1, .f32⟩
  | .hbm, ⟨59, _⟩ => ⟨S100000x1, .i1⟩
  | .hbm, ⟨60, _⟩ => ⟨S_, .f32⟩
  | .hbm, ⟨61, _⟩ => ⟨S_, .f32⟩
  | .hbm, ⟨62, _⟩ => ⟨S100000x1, .f32⟩
  | .hbm, ⟨63, _⟩ => ⟨S100000x1, .f32⟩
  | .hbm, ⟨64, _⟩ => ⟨S100000x128, .f32⟩
  | .hbm, ⟨65, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_cst : Ref sig .tc := ⟨.hbm, 49, rfl⟩
abbrev main_call1_v0 : Ref sig .tc := ⟨.hbm, 50, rfl⟩
abbrev main_v33 : Ref sig .tc := ⟨.hbm, 51, rfl⟩
abbrev main_call2_v0 : Ref sig .tc := ⟨.hbm, 52, rfl⟩
abbrev main_call2_cst : Ref sig .tc := ⟨.hbm, 53, rfl⟩
abbrev main_call2_v1 : Ref sig .tc := ⟨.hbm, 54, rfl⟩
abbrev main_call2_v2 : Ref sig .tc := ⟨.hbm, 55, rfl⟩
abbrev main_v34 : Ref sig .tc := ⟨.hbm, 56, rfl⟩
abbrev main_cst_3 : Ref sig .tc := ⟨.hbm, 57, rfl⟩
abbrev main_v35 : Ref sig .tc := ⟨.hbm, 58, rfl⟩
abbrev main_v36 : Ref sig .tc := ⟨.hbm, 59, rfl⟩
abbrev main_cst_4 : Ref sig .tc := ⟨.hbm, 60, rfl⟩
abbrev main_call3_v0 : Ref sig .tc := ⟨.hbm, 61, rfl⟩
abbrev main_call3_v1 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  transposes_S128x256_S256x128_1_0 : S128x256.Transposes [1, 0] S256x128
  reducesTo_S100000x128_S100000_d1 : S100000x128.ReducesTo [1] S100000
  h_S_ : 0 < S_.numel
  bcast_S_S100000x1 : S_.BroadcastsInDim S100000x1 (![] : Fin 0 → Fin S100000x1.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.KRun.lean ====
/-
  The idealized kernel program's run with its result array named.  The program is two grid regions with a stretch
  of host operations between them; its generated frame proves termination and that the arguments end unchanged,
  through a fold of the buffer contents at each segment boundary.  The same launch, read at the result's buffer as
  well as at the arguments', says that the result array ends at the last boundary's contents of that buffer.
-/
import proofs.«166060_j59846074302804_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at the contents the last
    segment boundary gives its buffer, and the nine arguments end as launched. -/
theorem run_named : θ_run defs (onTc (τ := τ) (main (F := F))) ⟨m, fun _ => 0, ρ⟩ (fun r => ∀ c : Dev nD,
      r.2.mem ((c.tc : Thread nD τ).loc main_v20) = W3 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v20 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c)⟩)

end Cert.KernelIdeal.Hand

end
-- ==== Proof.Spec.lean ====
/-
  The two dense stages of the layer, written once, index by index, over the extended reals and for any number
  of rows (a block of rows and the whole array are the same text).

  Stage one: a row of `x` against the rows of `w`, plus the bias, clamped below at zero.
  Stage two: the aggregated row divided by its weight sum clamped below at one, against the rows of `w1`, plus
  the destination row against the rows of `w2`, plus the bias, clamped below at zero; the row is then divided by its
  Euclidean norm, the norm replaced by one where it is zero.  Every entry of a result row depends on that row of
  the row-indexed operands only: the congruence lemmas below say so.  The last lemma splits a sum over 256 terms
  into its two halves (addition on the extended reals is commutative and associative, nothing more is used).
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The float words `0.0` and `1.0`, as the extended reals they denote. -/
abbrev zero : EReal := Ideal.ofBits .f32 0x00000000#32
abbrev one : EReal := Ideal.ofBits .f32 0x3F800000#32

/-- A matrix and a vector of extended reals, by literal extents. -/
abbrev Mx (n k : ℕ) : Type := (⟨2, ![n, k]⟩ : Shape).Idx → EReal
abbrev Vx (n : ℕ) : Type := (⟨1, ![n]⟩ : Shape).Idx → EReal

/-! ## Stage one -/

/-- Entry `(r, j)` of `max (x · wᵀ + b) 0`. -/
def projAt {n : ℕ} (x : Mx n 128) (w : Mx 128 128) (b : Vx 128) (r : Fin n) (j : Fin 128) : EReal :=
  max ((∑ k : Fin 128, x (ix2 r k) * w (ix2 j k)) + b (ix1 j)) zero

/-- The whole matrix. -/
def proj {n : ℕ} (x : Mx n 128) (w : Mx 128 128) (b : Vx 128) : Mx n 128 :=
  fun i => projAt x w b (i 0) (i 1)

theorem proj_ix2 {n : ℕ} (x : Mx n 128) (w : Mx 128 128) (b : Vx 128) (r : Fin n) (j : Fin 128) :
    proj x w b (ix2 r j) = projAt x w b r j := rfl

/-- Row `r` of the result reads row `r` of `x` only. -/
theorem projAt_congr {n n' : ℕ} (x : Mx n 128) (x' : Mx n' 128) (w : Mx 128 128) (b : Vx 128) (r : Fin n) (r' : Fin n')
    (hx : ∀ k : Fin 128, x (ix2 r k) = x' (ix2 r' k)) (j : Fin 128) :
    projAt x w b r j = projAt x' w b r' j := by
  unfold projAt
  simp only [hx]

/-! ## Stage two -/

/-- Entry `(r, j)` before the normalization: `max ((agg / max ws 1) · w1ᵀ + h · w2ᵀ + b) 0`. -/
def zAt {n : ℕ} (agg : Mx n 128) (ws : Mx n 1) (h : Mx n 128) (w1 w2 : Mx 128 128) (b : Vx 128)
    (r : Fin n) (j : Fin 128) : EReal :=
  max (((∑ k : Fin 128, Ideal.div (agg (ix2 r k)) (max (ws (ix2 r (0 : Fin 1))) one) * w1 (ix2 j k))
      + (∑ k : Fin 128, h (ix2 r k) * w2 (ix2 j k))) + b (ix1 j)) zero

/-- The norm of row `r`, one where it is zero. -/
def nrmAt {n : ℕ} (agg : Mx n 128) (ws : Mx n 1) (h : Mx n 128) (w1 w2 : Mx 128 128) (b : Vx 128)
    (r : Fin n) : EReal :=
  Scalar.select (Ideal.cmp .oeq (Ideal.sqrt (∑ j : Fin 128, zAt agg ws h w1 w2 b r j * zAt agg ws h w1 w2 b r j)) zero)
    one (Ideal.sqrt (∑ j : Fin 128, zAt agg ws h w1 w2 b r j * zAt agg ws h w1 w2 b r j))

/-- Entry `(r, j)` of the normalized result. -/
def outAt {n : ℕ} (agg : Mx n 128) (ws : Mx n 1) (h : Mx n 128) (w1 w2 : Mx 128 128) (b : Vx 128)
    (r : Fin n) (j : Fin 128) : EReal :=
  Ideal.div (zAt agg ws h w1 w2 b r j) (nrmAt agg ws h w1 w2 b r)

/-- The whole matrix. -/
def out {n : ℕ} (agg : Mx n 128) (ws : Mx n 1) (h : Mx n 128) (w1 w2 : Mx 128 128) (b : Vx 128) : Mx n 128 :=
  fun i => outAt agg ws h w1 w2 b (i 0) (i 1)

theorem out_ix2 {n : ℕ} (agg : Mx n 128) (ws : Mx n 1) (h : Mx n 128) (w1 w2 : Mx 128 128) (b : Vx 128)
    (r : Fin n) (j : Fin 128) : out agg ws h w1 w2 b (ix2 r j) = outAt agg ws h w1 w2 b r j := rfl

/-- Row `r` of the second stage reads row `r` of the three row-indexed operands only. -/
theorem zAt_congr {n n' : ℕ} (agg : Mx n 128) (ws : Mx n 1) (h : Mx n 128) (agg' : Mx n' 128) (ws' : Mx n' 1) (h' : Mx n' 128)
    (w1 w2 : Mx 128 128) (b : Vx 128) (r : Fin n) (r' : Fin n')
    (ha : ∀ k : Fin 128, agg (ix2 r k) = agg' (ix2 r' k)) (hw : ws (ix2 r (0 : Fin 1)) = ws' (ix2 r' (0 : Fin 1)))
    (hh : ∀ k : Fin 128, h (ix2 r k) = h' (ix2 r' k)) (j : Fin 128) :
    zAt agg ws h w1 w2 b r j = zAt agg' ws' h' w1 w2 b r' j := by
  unfold zAt
  simp only [ha, hw, hh]

theorem outAt_congr {n n' : ℕ} (agg : Mx n 128) (ws : Mx n 1) (h : Mx n 128) (agg' : Mx n' 128) (ws' : Mx n' 1) (h' : Mx n' 128)
    (w1 w2 : Mx 128 128) (b : Vx 128) (r : Fin n) (r' : Fin n')
    (ha : ∀ k : Fin 128, agg (ix2 r k) = agg' (ix2 r' k)) (hw : ws (ix2 r (0 : Fin 1)) = ws' (ix2 r' (0 : Fin 1)))
    (hh : ∀ k : Fin 128, h (ix2 r k) = h' (ix2 r' k)) (j : Fin 128) :
    outAt agg ws h w1 w2 b r j = outAt agg' ws' h' w1 w2 b r' j := by
  have hz : ∀ j, zAt agg ws h w1 w2 b r j = zAt agg' ws' h' w1 w2 b r' j :=
    zAt_congr agg ws h agg' ws' h' w1 w2 b r r' ha hw hh
  unfold outAt nrmAt
  simp only [hz]

/-! ## A sum over 256 terms, in two halves -/

theorem sum_halves (f : Fin 256 → EReal) :
    ∑ k : Fin 256, f k
      = (∑ k : Fin 128, f ⟨k.val, Nat.lt_of_lt_of_le k.isLt (by decide)⟩)
        + ∑ k : Fin 128, f ⟨128 + k.val, by have := k.isLt; omega⟩ :=
  Fin.sum_univ_add (a := 128) (b := 128) f

end Cert.Sage

end
-- ==== Proof.MatUnit.lean ====
/-
  The kernel's matrix unit, read at an entry.  Both kernel bodies multiply a block of 5000 rows by a 128 × 128 matrix
  into a zero accumulator, contracting the left operand's columns against the right operand's rows.  Over the extended
  reals the entry `(p, q)` of the product is the plain sum over `k` of left `(p, k)` times right `(k, q)`.
-/
import proofs.«166060_j59846074302804_1_alg».proof.Proof.Gen.KernelIdeal
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- The dot's dimension record: rows × contraction times contraction × columns. -/
abbrev Dk : DotDims S5000x128 S128x128 S5000x128 := dot_S5000x128_S128x128_S5000x128_1_0_0_1_n_n

theorem dk_lhs0 (i : S5000x128.Idx) (q : Dk.contr.Idx) : (Dk.lhsIdx i q 0).val = (i 0).val := by
  unfold DotDims.lhsIdx
  rw [dif_neg (show ¬(0 : Fin S5000x128.rank) ∈ Dk.lhsBatch by decide), dif_pos (show (0 : Fin S5000x128.rank) ∈ Dk.lhsNonContracting by decide)]
  rfl
theorem dk_lhs1 (i : S5000x128.Idx) (q : Dk.contr.Idx) : (Dk.lhsIdx i q 1).val = (q ⟨0, by decide⟩).val :=
  Dk.lhsIdx_val_of_single rfl i q
theorem dk_rhs0 (i : S5000x128.Idx) (q : Dk.contr.Idx) : (Dk.rhsIdx i q 0).val = (q ⟨0, by decide⟩).val :=
  Dk.rhsIdx_val_of_single rfl i q
theorem dk_rhs1 (i : S5000x128.Idx) (q : Dk.contr.Idx) : (Dk.rhsIdx i q 1).val = (i 1).val := by
  unfold DotDims.rhsIdx
  rw [dif_neg (show ¬(1 : Fin S128x128.rank) ∈ Dk.rhsBatch by decide), dif_pos (show (1 : Fin S128x128.rank) ∈ Dk.rhsNonContracting by decide)]
  rfl

/-- Entry `(p, q)` of the product into the zero accumulator: the sum over the contraction index. -/
theorem matUnit_apply {φ₁ φ₂ : FTy} (l : FVec Ideal S5000x128 φ₁) (r : FVec Ideal S128x128 φ₂) (p : Fin 5000) (q : Fin 128) :
    matmul Dk none l r (constant S5000x128 .f32 0x00000000#32) (ix2 p q) = ∑ k : Fin 128, l (ix2 p k) * r (ix2 k q) := by
  simp only [matmul]
  rw [Ideal.matmul_constant_zero_apply, ← Equiv.sum_comp (contrEquiv1 Dk 128 rfl rfl).symm]
  refine Finset.sum_congr rfl fun k _ => ?_
  have hk := contrEquiv1_symm_val Dk 128 rfl rfl k
  have el : Dk.lhsIdx (ix2 p q) ((contrEquiv1 Dk 128 rfl rfl).symm k) = ix2 p k := funext fun a => Fin.ext (by
    match a with
    | ⟨0, _⟩ => exact dk_lhs0 _ _
    | ⟨1, _⟩ => exact (dk_lhs1 _ _).trans hk)
  have er : Dk.rhsIdx (ix2 p q) ((contrEquiv1 Dk 128 rfl rfl).symm k) = ix2 k q := funext fun a => Fin.ext (by
    match a with
    | ⟨0, _⟩ => exact (dk_rhs0 _ _).trans hk
    | ⟨1, _⟩ => exact dk_rhs1 _ _)
  rw [el, er]

end Cert.KernelIdeal.Hand

end
-- ==== Proof.LibColumn.lean ====
/-
  A column kept by a reduction ("keepdims"): the two layout steps that turn a vector of row results into
  a matrix with one value per row, each read at an index written by coordinates.
-/
import Idealize.ShloMosaic.Lib.Pipeline.Value
import Idealize.ShloMosaic.Lib.ValueIdx

namespace Idealize.ShloMosaic.ValueIdx

variable {α : Type}

/-- An `[a]` vector cast to the column `[a, 1]` reads, at `(i, u)`, the operand at `i`, whatever the
    unit coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array cast to `[a, b]` (the kept unit axis dropped) reads, at `(i, j)`, the operand at
    `(i, j, 0)`: both indices have row-major position `i·b + j`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

end Idealize.ShloMosaic.ValueIdx
-- ==== Proof.Pay1.lean ====
/-
  What the second kernel body stores, at an entry.  The body clamps the weight-sum column below at one and divides the
  aggregated block by it, multiplies the quotient by the transpose of `w1` and the destination block by the transpose
  of `w2` on the matrix unit, adds the two products and the bias row, clamps below at zero; then sums each row's
  squares along the lanes, takes the square root, replaces a zero root by one, and divides the row by it.  The changes
  of float format and the shape casts onto the same shape are the identity.
-/
import proofs.«166060_j59846074302804_1_alg».proof.Proof.Gen.KernelIdeal.Skeleton
import proofs.«166060_j59846074302804_1_alg».proof.Proof.Spec
import proofs.«166060_j59846074302804_1_alg».proof.Proof.MatUnit
import proofs.«166060_j59846074302804_1_alg».proof.Proof.LibColumn
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx Cert.Sage

/-- The block before the normalization, in the body's own operations. -/
def zVec (v0 : Vec Ideal S5000x1 .f32) (v4 v9 : Vec Ideal S5000x128 .f32) (v11 v14 : Vec Ideal S128x128 .f32)
    (v22 : Vec Ideal S128 .f32) : FVec Ideal S5000x128 .f32 :=
  maximumf (addf (addf
      (matmul (F := Ideal) Dk none
        (truncf .bf16 (divf (shapeCast S5000x128 v4 shapeCasts_S5000x128_S5000x128)
          (broadcastTo S5000x128 (maximumf (shapeCast S5000x1 v0 shapeCasts_S5000x1_S5000x1)
            (broadcast S5000x1 (Scalar.ofBits .f32 0x3F800000#32))) broadcasts_S5000x1_S5000x128)) bitsLt_bf16_f32)
        (transpose S128x128 [1, 0] (truncf .bf16 (shapeCast S128x128 v11 shapeCasts_S128x128_S128x128) bitsLt_bf16_f32)
          transposes_S128x128_p1_0_S128x128)
        (constant S5000x128 .f32 0x00000000#32))
      (matmul (F := Ideal) Dk none (truncf .bf16 v9 bitsLt_bf16_f32)
        (transpose S128x128 [1, 0] (truncf .bf16 (shapeCast S128x128 v14 shapeCasts_S128x128_S128x128) bitsLt_bf16_f32)
          transposes_S128x128_p1_0_S128x128)
        (constant S5000x128 .f32 0x00000000#32)))
      (broadcastTo S5000x128 (shapeCast S1x128 v22 shapeCasts_S128_S1x128) broadcasts_S1x128_S5000x128))
    (broadcast S5000x128 (Scalar.ofBits .f32 0x00000000#32))

/-- The column of row norms, one where the root is zero, in the body's own operations. -/
def nVec (z : FVec Ideal S5000x128 .f32) : FVec Ideal S5000x1 .f32 :=
  select
    (cmpf .oeq (sqrt (shapeCast S5000x1 (multiReduction .add [1] S5000 (mulf z z) 0x00000000#32 reduces_S5000x128_S5000 (.inl rfl) rfl)
        shapeCasts_S5000_S5000x1))
      (broadcast S5000x1 (Scalar.ofBits .f32 0x00000000#32)))
    (broadcast S5000x1 (Scalar.ofBits .f32 0x3F800000#32))
    (sqrt (shapeCast S5000x1 (multiReduction .add [1] S5000 (mulf z z) 0x00000000#32 reduces_S5000x128_S5000 (.inl rfl) rfl)
        shapeCasts_S5000_S5000x1))

/-- The payload is the block divided by its column of norms broadcast along the lanes. -/
theorem pay1_split (v0 : Vec Ideal S5000x1 .f32) (v4 v9 : Vec Ideal S5000x128 .f32) (v11 v14 : Vec Ideal S128x128 .f32)
    (v22 : Vec Ideal S128 .f32) :
    k1_pay1 (F := Ideal) v0 v4 v9 v11 v14 v22
      = divf (zVec v0 v4 v9 v11 v14 v22) (broadcastTo S5000x128 (nVec (zVec v0 v4 v9 v11 v14 v22)) broadcasts_S5000x1_S5000x128) := rfl

/-- The block before the normalization, at an entry. -/
theorem zVec_apply (v0 : Vec Ideal S5000x1 .f32) (v4 v9 : Vec Ideal S5000x128 .f32) (v11 v14 : Vec Ideal S128x128 .f32)
    (v22 : Vec Ideal S128 .f32) (p : Fin 5000) (q : Fin 128) :
    zVec v0 v4 v9 v11 v14 v22 (ix2 p q) = zAt (n := 5000) v4 v0 v9 v11 v14 v22 p q := by
  unfold zVec zAt
  have hA : matmul (F := Ideal) Dk none
        (truncf .bf16 (divf (shapeCast S5000x128 v4 shapeCasts_S5000x128_S5000x128)
          (broadcastTo S5000x128 (maximumf (shapeCast S5000x1 v0 shapeCasts_S5000x1_S5000x1)
            (broadcast S5000x1 (Scalar.ofBits .f32 0x3F800000#32))) broadcasts_S5000x1_S5000x128)) bitsLt_bf16_f32)
        (transpose S128x128 [1, 0] (truncf .bf16 (shapeCast S128x128 v11 shapeCasts_S128x128_S128x128) bitsLt_bf16_f32)
          transposes_S128x128_p1_0_S128x128)
        (constant S5000x128 .f32 0x00000000#32) (ix2 p q)
      = ∑ k : Fin 128, Ideal.div (v4 (ix2 p k)) (max (v0 (ix2 p (0 : Fin 1))) one) * v11 (ix2 q k) := by
    refine (matUnit_apply _ _ p q).trans (Finset.sum_congr rfl fun k _ => ?_)
    have e1 : (broadcastTo S5000x128 (maximumf (F := Ideal) (shapeCast S5000x1 v0 shapeCasts_S5000x1_S5000x1)
            (broadcast S5000x1 (Scalar.ofBits .f32 0x3F800000#32))) broadcasts_S5000x1_S5000x128) (ix2 p k)
          = max (v0 (ix2 p (0 : Fin 1))) one := by
      refine (broadcastTo_a1_ab_apply _ broadcasts_S5000x1_S5000x128 p k).trans ?_
      rw [shapeCast_self]
      rfl
    have e2 : (transpose S128x128 [1, 0] (truncf (F := Ideal) .bf16 (shapeCast S128x128 v11 shapeCasts_S128x128_S128x128) bitsLt_bf16_f32)
          transposes_S128x128_p1_0_S128x128) (ix2 k q) = v11 (ix2 q k) := by
      refine (transpose_ix2_apply _ transposes_S128x128_p1_0_S128x128 k q).trans ?_
      rw [shapeCast_self]
      rfl
    rw [e2]
    show Ideal.div (shapeCast S5000x128 v4 shapeCasts_S5000x128_S5000x128 (ix2 p k)) _ * _ = _
    rw [e1, shapeCast_self]
  have hH : matmul (F := Ideal) Dk none (truncf .bf16 v9 bitsLt_bf16_f32)
        (transpose S128x128 [1, 0] (truncf .bf16 (shapeCast S128x128 v14 shapeCasts_S128x128_S128x128) bitsLt_bf16_f32)
          transposes_S128x128_p1_0_S128x128)
        (constant S5000x128 .f32 0x00000000#32) (ix2 p q)
      = ∑ k : Fin 128, v9 (ix2 p k) * v14 (ix2 q k) := by
    refine (matUnit_apply _ _ p q).trans (Finset.sum_congr rfl fun k _ => ?_)
    have e2 : (transpose S128x128 [1, 0] (truncf (F := Ideal) .bf16 (shapeCast S128x128 v14 shapeCasts_S128x128_S128x128) bitsLt_bf16_f32)
          transposes_S128x128_p1_0_S128x128) (ix2 k q) = v14 (ix2 q k) := by
      refine (transpose_ix2_apply _ transposes_S128x128_p1_0_S128x128 k q).trans ?_
      rw [shapeCast_self]
      rfl
    rw [e2]
    rfl
  have hB : broadcastTo S5000x128 (shapeCast S1x128 v22 shapeCasts_S128_S1x128) broadcasts_S1x128_S5000x128 (ix2 p q) = v22 (ix1 q) :=
    (broadcastTo_1b_ab_apply _ broadcasts_S1x128_S5000x128 p q).trans (shapeCast_a_1a_apply v22 shapeCasts_S128_S1x128 0 q)
  show max ((matmul (F := Ideal) Dk none _ _ _ (ix2 p q) + matmul (F := Ideal) Dk none _ _ _ (ix2 p q)) + broadcastTo S5000x128 _ _ (ix2 p q)) zero = _
  rw [hA, hH, hB]

/-- The column of norms at row `p`, from the block's row. -/
theorem nVec_apply (z : FVec Ideal S5000x128 .f32) (p : Fin 5000) :
    nVec z (ix2 p (0 : Fin 1))
      = Scalar.select (Ideal.cmp .oeq (Ideal.sqrt (∑ j : Fin 128, z (ix2 p j) * z (ix2 p j))) zero) one
          (Ideal.sqrt (∑ j : Fin 128, z (ix2 p j) * z (ix2 p j))) := by
  have hS : shapeCast S5000x1 (multiReduction .add [1] S5000 (mulf z z) 0x00000000#32 reduces_S5000x128_S5000 (.inl rfl) rfl)
        shapeCasts_S5000_S5000x1 (ix2 p (0 : Fin 1)) = ∑ j : Fin 128, z (ix2 p j) * z (ix2 p j) := by
    refine (shapeCast_a_a1_apply _ shapeCasts_S5000_S5000x1 p 0).trans ?_
    refine (Ideal.multiReduction_add_single (mulf z z) 0x00000000#32 reduces_S5000x128_S5000 (.inl rfl) rfl (ix1 p)).trans ?_
    refine Finset.sum_congr rfl fun j _ => ?_
    have e : reduces_S5000x128_S5000.lift (ix1 p) j = ix2 p j := funext fun a => Fin.ext (by
      match a with
      | ⟨0, _⟩ => rfl
      | ⟨1, _⟩ => rfl)
    rw [e]
    rfl
  unfold nVec
  show Scalar.select (Ideal.cmp .oeq (Ideal.sqrt (shapeCast S5000x1 _ shapeCasts_S5000_S5000x1 (ix2 p (0 : Fin 1)))) zero) one
      (Ideal.sqrt (shapeCast S5000x1 _ shapeCasts_S5000_S5000x1 (ix2 p (0 : Fin 1)))) = _
  rw [hS]

/-- The second body's payload is stage two of the layer on its block of rows. -/
theorem pay1_eq (v0 : Vec Ideal S5000x1 .f32) (v4 v9 : Vec Ideal S5000x128 .f32) (v11 v14 : Vec Ideal S128x128 .f32)
    (v22 : Vec Ideal S128 .f32) :
    k1_pay1 (F := Ideal) v0 v4 v9 v11 v14 v22 = out (n := 5000) v4 v0 v9 v11 v14 v22 := by
  funext i
  obtain ⟨p, q, rfl⟩ : ∃ (p : Fin 5000) (q : Fin 128), i = ix2 p q := ⟨i 0, i 1, eq_ix2 i⟩
  rw [pay1_split, out_ix2]
  unfold outAt nrmAt
  show Ideal.div (zVec v0 v4 v9 v11 v14 v22 (ix2 p q))
      (broadcastTo S5000x128 (nVec (zVec v0 v4 v9 v11 v14 v22)) broadcasts_S5000x1_S5000x128 (ix2 p q)) = _
  rw [broadcastTo_a1_ab_apply _ broadcasts_S5000x1_S5000x128 p q, nVec_apply, zVec_apply]
  simp only [zVec_apply]

end Cert.KernelIdeal.Hand

end
-- ==== Proof.SpecBlock.lean ====
/-
  A block of rows against the whole array.  Each stage's entry at a row reads that row of the row-indexed operands
  only, so the stage computed on a block of rows, at a row of the block, is the stage computed on the whole array at
  the corresponding row: stated here at arbitrary indices whose column coordinates agree.
-/
import proofs.«166060_j59846074302804_1_alg».proof.Proof.Spec

noncomputable section

namespace Cert.Sage

open Idealize.ShloMosaic Idealize.ShloMosaic.ValueIdx

theorem proj_block {n n' : ℕ} (x : Mx n 128) (x' : Mx n' 128) (w : Mx 128 128) (b : Vx 128)
    (i : (⟨2, ![n, 128]⟩ : Shape).Idx) (i' : (⟨2, ![n', 128]⟩ : Shape).Idx) (h1 : (i 1).val = (i' 1).val)
    (hx : ∀ k : Fin 128, x (ix2 (i 0) k) = x' (ix2 (i' 0) k)) : proj x w b i = proj x' w b i' := by
  have e : (i 1 : Fin 128) = i' 1 := Fin.ext h1
  show projAt x w b (i 0) (i 1) = projAt x' w b (i' 0) (i' 1)
  exact (congrArg (projAt x w b (i 0)) e).trans (projAt_congr x x' w b (i 0) (i' 0) hx (i' 1))

theorem out_block {n n' : ℕ} (agg : Mx n 128) (ws : Mx n 1) (h : Mx n 128) (agg' : Mx n' 128) (ws' : Mx n' 1) (h' : Mx n' 128)
    (w1 w2 : Mx 128 128) (b : Vx 128)
    (i : (⟨2, ![n, 128]⟩ : Shape).Idx) (i' : (⟨2, ![n', 128]⟩ : Shape).Idx) (h1 : (i 1).val = (i' 1).val)
    (ha : ∀ k : Fin 128, agg (ix2 (i 0) k) = agg' (ix2 (i' 0) k))
    (hw : ws (ix2 (i 0) (0 : Fin 1)) = ws' (ix2 (i' 0) (0 : Fin 1)))
    (hh : ∀ k : Fin 128, h (ix2 (i 0) k) = h' (ix2 (i' 0) k)) :
    out agg ws h w1 w2 b i = out agg' ws' h' w1 w2 b i' := by
  have e : (i 1 : Fin 128) = i' 1 := Fin.ext h1
  show outAt agg ws h w1 w2 b (i 0) (i 1) = outAt agg' ws' h' w1 w2 b (i' 0) (i' 1)
  exact (congrArg (outAt agg ws h w1 w2 b (i 0)) e).trans
    (outAt_congr agg ws h agg' ws' h' w1 w2 b (i 0) (i' 0) ha hw hh (i' 1))

end Cert.Sage

end
-- ==== Proof.Reg1.lean ====
/-
  The second region's result array.  The grid has twenty points; point `t` reads rows `5000 t … 5000 t + 4999` of the
  aggregated array, of the weight-sum column and of the destination features, the two whole weight halves and the whole
  bias, and writes back rows `5000 t … 5000 t + 4999` of the result.  What it writes is stage two of the layer on its
  block of rows, which is the block of stage two of the whole arrays (a result row reads that row of the row-indexed
  operands only); the twenty blocks cover the array.
-/
import proofs.«166060_j59846074302804_1_alg».proof.Proof.Gen.KernelIdeal.Frame
import proofs.«166060_j59846074302804_1_alg».proof.Proof.Pay1
import proofs.«166060_j59846074302804_1_alg».proof.Proof.SpecBlock
import Idealize.ShloMosaic.Lib.Pipeline.Value

set_option maxRecDepth 16384

noncomputable section

namespace Cert.KernelIdeal.Hand

open Cert.KernelIdeal Cert.KernelIdeal.Gen Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zy2 : (![0, 0] : Fin 2 → Nat) = fun _ => 0 := funext fun a => by fin_cases a <;> rfl
theorem zy1 : (![0] : Fin 1 → Nat) = fun _ => 0 := funext fun a => by fin_cases a; rfl

/-- The printed index maps over the grid: the row-blocked windows sit at block `t`, the others at block zero. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The aggregated window's block at point `t` is rows `5000 t …` of the array. -/
theorem iblk1_0_apply (c : Dev nD) (t : Fin cfg1.N) (x : S5000x128.Idx) (k : S100000x128.Idx)
    (hk0 : (k 0).val = t.val * 5000 + (x 0).val) (hk1 : (k 1).val = (x 1).val) :
    (iblk1 V c 0 t : Vec Ideal S5000x128 .f32) x = (V c main_v13 : S100000x128.Idx → EReal) k := by
  obtain ⟨e0, e1, -⟩ := idx1 t
  unfold iblk1
  rw [View.read_apply]
  show V c main_v13 _ = V c main_v13 _
  refine congrArg (V c main_v13) (funext fun a => Fin.ext ?_)
  match a with
  | ⟨0, _⟩ => show win1_0.index t (0 : Fin 2) * 5000 + 1 * (x 0).val = (k 0).val; rw [e0, hk0]; omega
  | ⟨1, _⟩ => show win1_0.index t (1 : Fin 2) * 128 + 1 * (x 1).val = (k 1).val; rw [e1, hk1]; omega

/-- The weight-sum window's block at point `t` is rows `5000 t …` of the column. -/
theorem iblk1_1_apply (c : Dev nD) (t : Fin cfg1.N) (x : S5000x1.Idx) (k : S100000x1.Idx)
    (hk0 : (k 0).val = t.val * 5000 + (x 0).val) (hk1 : (k 1).val = (x 1).val) :
    (iblk1 V c 1 t : Vec Ideal S5000x1 .f32) x = (V c main_v17 : S100000x1.Idx → EReal) k := by
  obtain ⟨-, -, e2, e3, -⟩ := idx1 t
  unfold iblk1
  rw [View.read_apply]
  show V c main_v17 _ = V c main_v17 _
  refine congrArg (V c main_v17) (funext fun a => Fin.ext ?_)
  match a with
  | ⟨0, _⟩ => show win1_1.index t (0 : Fin 2) * 5000 + 1 * (x 0).val = (k 0).val; rw [e2, hk0]; omega
  | ⟨1, _⟩ => show win1_1.index t (1 : Fin 2) * 1 + 1 * (x 1).val = (k 1).val; rw [e3, hk1]; omega

/-- The destination window's block at point `t` is rows `5000 t …` of the features. -/
theorem iblk1_2_apply (c : Dev nD) (t : Fin cfg1.N) (x : S5000x128.Idx) (k : S100000x128.Idx)
    (hk0 : (k 0).val = t.val * 5000 + (x 0).val) (hk1 : (k 1).val = (x 1).val) :
    (iblk1 V c 2 t : Vec Ideal S5000x128 .f32) x = (V c main_arg1 : S100000x128.Idx → EReal) k := by
  obtain ⟨-, -, -, -, e4, e5, -⟩ := idx1 t
  unfold iblk1
  rw [View.read_apply]
  show V c main_arg1 _ = V c main_arg1 _
  refine congrArg (V c main_arg1) (funext fun a => Fin.ext ?_)
  match a with
  | ⟨0, _⟩ => show win1_2.index t (0 : Fin 2) * 5000 + 1 * (x 0).val = (k 0).val; rw [e4, hk0]; omega
  | ⟨1, _⟩ => show win1_2.index t (1 : Fin 2) * 128 + 1 * (x 1).val = (k 1).val; rw [e5, hk1]; omega

/-- The two weight windows' blocks are the whole halves, the bias window's the whole vector. -/
theorem iblk1_3_eq (c : Dev nD) (t : Fin cfg1.N) :
    (iblk1 V c 3 t : Vec Ideal S128x128 .f32) = (V c main_v18 : S128x128.Idx → EReal) := by
  obtain ⟨-, -, -, -, -, -, e6, e7, -⟩ := idx1 t
  funext x
  unfold iblk1
  rw [View.read_apply]
  show V c main_v18 _ = V c main_v18 _
  refine congrArg (V c main_v18) (funext fun a => Fin.ext ?_)
  match a with
  | ⟨0, _⟩ => show win1_3.index t (0 : Fin 2) * 128 + 1 * (x 0).val = (x 0).val; rw [e6]; omega
  | ⟨1, _⟩ => show win1_3.index t (1 : Fin 2) * 128 + 1 * (x 1).val = (x 1).val; rw [e7]; omega
theorem iblk1_4_eq (c : Dev nD) (t : Fin cfg1.N) :
    (iblk1 V c 4 t : Vec Ideal S128x128 .f32) = (V c main_v19 : S128x128.Idx → EReal) := by
  obtain ⟨-, -, -, -, -, -, -, -, e8, e9, -⟩ := idx1 t
  funext x
  unfold iblk1
  rw [View.read_apply]
  show V c main_v19 _ = V c main_v19 _
  refine congrArg (V c main_v19) (funext fun a => Fin.ext ?_)
  match a with
  | ⟨0, _⟩ => show win1_4.index t (0 : Fin 2) * 128 + 1 * (x 0).val = (x 0).val; rw [e8]; omega
  | ⟨1, _⟩ => show win1_4.index t (1 : Fin 2) * 128 + 1 * (x 1).val = (x 1).val; rw [e9]; omega
theorem iblk1_5_eq (c : Dev nD) (t : Fin cfg1.N) :
    (iblk1 V c 5 t : Vec Ideal S128 .f32) = (V c main_arg6 : S128.Idx → EReal) := by
  obtain ⟨-, -, -, -, -, -, -, -, -, -, e10, -⟩ := idx1 t
  funext x
  unfold iblk1
  rw [View.read_apply]
  show V c main_arg6 _ = V c main_arg6 _
  refine congrArg (V c main_arg6) (funext fun a => Fin.ext ?_)
  match a with
  | ⟨0, _⟩ => show win1_5.index t (0 : Fin 1) * 128 + 1 * (x 0).val = (x 0).val; rw [e10]; omega

/-- What point `t` writes back is block `t` of stage two of the arrays the region found. -/
theorem flushed1_eq (c : Dev nD) (t : Fin cfg1.N) :
    (dat1 V c).flushed 6 t = ((cfg1.win 6).blk t).view.read (Elt Ideal)
      (out (n := 100000) (V c main_v13) (V c main_v17) (V c main_arg1) (V c main_v18) (V c main_v19) (V c main_arg6)) := by
  show (cfg1.win 6).cut (grid1.coords t) ((dat1 V c).after 6 t) = _
  rw [after1_6]
  unfold out1_6
  rw [View.canon_unit_zero zy2]
  simp only [View.ld_unit_zero (S := S5000x128) zy2, View.ld_unit_zero (S := S5000x1) zy2,
    View.ld_unit_zero (S := S128x128) zy2, View.ld_unit_zero (S := S128) zy1]
  rw [pay1_eq, iblk1_3_eq, iblk1_4_eq, iblk1_5_eq]
  obtain ⟨-, -, -, -, -, -, -, -, -, -, -, e11, e12⟩ := idx1 t
  funext y
  rw [View.read_apply]
  refine out_block (n := 5000) (n' := 100000) _ _ _ _ _ _ _ _ _ y _ ?_ (fun k => ?_) ?_ (fun k => ?_)
  · show (y 1).val = win1_6.index t (1 : Fin 2) * 128 + 1 * (y 1).val
    rw [e12]; omega
  · refine iblk1_0_apply V c t _ _ ?_ rfl
    show win1_6.index t (0 : Fin 2) * 5000 + 1 * (y 0).val = t.val * 5000 + (y 0).val
    rw [e11]; omega
  · refine iblk1_1_apply V c t _ _ ?_ rfl
    show win1_6.index t (0 : Fin 2) * 5000 + 1 * (y 0).val = t.val * 5000 + (y 0).val
    rw [e11]; omega
  · refine iblk1_2_apply V c t _ _ ?_ rfl
    show win1_6.index t (0 : Fin 2) * 5000 + 1 * (y 0).val = t.val * 5000 + (y 0).val
    rw [e11]; omega

/-- An index of the result array is in point `t`'s block iff each coordinate is in the block's range on its axis. -/
theorem mem_blk1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v20).slice (win1_6.rect t)).set ↔ _
  rw [View.set_slice_whole, Rect.mem_set_unit]
  exact Iff.rfl

/-- Row `r` is in the block of point `r / 5000`. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, -, -, -, -, -, e11, e12⟩ := idx1 ⟨(i 0).val / 5000, ht⟩
  refine ⟨⟨(i 0).val / 5000, ht⟩, flush1_6 _, ?_⟩
  rw [mem_blk1]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e11]; show (i 0).val / 5000 * 5000 ≤ (i 0).val ∧ (i 0).val < (i 0).val / 5000 * 5000 + 5000; omega
  | ⟨1, _⟩ =>
    show win1_6.index ⟨(i 0).val / 5000, ht⟩ (1 : Fin 2) * 128 ≤ (i 1).val ∧ (i 1).val < win1_6.index ⟨(i 0).val / 5000, ht⟩ (1 : Fin 2) * 128 + 128
    rw [e12]; omega

/-- The second region's result array after the region: stage two of the arrays the region found. -/
theorem final1 (c : Dev nD) :
    (dat1 V c).arrAt 6 cfg1.N
      = out (n := 100000) (V c main_v13) (V c main_v17) (V c main_arg1) (V c main_v18) (V c main_v19) (V c main_arg6) :=
  (dat1 V c).arrAt_eq_of_cover 6 _ (fun t _ => flushed1_eq V c t) cover1

end Cert.KernelIdeal.Hand

end
-- ==== Proof.Pay0.lean ====
/-
  What the first kernel body stores, at an entry: the block of rows against the rows of the weight matrix (the body
  transposes it before the product), plus the bias row broadcast down the block, clamped below at zero.  The changes
  of float format on the way into the matrix unit are the identity on the extended reals.
-/
import proofs.«166060_j59846074302804_1_alg».proof.Proof.Gen.KernelIdeal.Skeleton
import proofs.«166060_j59846074302804_1_alg».proof.Proof.Spec
import proofs.«166060_j59846074302804_1_alg».proof.Proof.MatUnit
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx Cert.Sage

/-- The first body's payload is stage one of the layer on its block of rows. -/
theorem pay0_eq (x0 : Vec Ideal S5000x128 .f32) (x2 : Vec Ideal S128x128 .f32) (x6 : Vec Ideal S128 .f32) :
    k0_pay1 (F := Ideal) x0 x2 x6 = proj (n := 5000) x0 x2 x6 := by
  funext i
  obtain ⟨p, q, rfl⟩ : ∃ (p : Fin 5000) (q : Fin 128), i = ix2 p q := ⟨i 0, i 1, eq_ix2 i⟩
  rw [proj_ix2]
  unfold k0_pay1 projAt
  have hM : matmul (F := Ideal) Dk none (truncf .bf16 x0 bitsLt_bf16_f32)
      (transpose S128x128 [1, 0] (truncf .bf16 x2 bitsLt_bf16_f32) transposes_S128x128_p1_0_S128x128)
      (constant S5000x128 .f32 0x00000000#32) (ix2 p q) = ∑ k : Fin 128, x0 (ix2 p k) * x2 (ix2 q k) := by
    refine (matUnit_apply _ _ p q).trans (Finset.sum_congr rfl fun k _ => ?_)
    have e : transpose S128x128 [1, 0] (truncf (F := Ideal) .bf16 x2 bitsLt_bf16_f32) transposes_S128x128_p1_0_S128x128 (ix2 k q)
        = x2 (ix2 q k) :=
      transpose_ix2_apply (α := EReal) (truncf (F := Ideal) .bf16 x2 bitsLt_bf16_f32) transposes_S128x128_p1_0_S128x128 k q
    exact congrArg (x0 (ix2 p k) * ·) e
  have hB : broadcastTo S5000x128 (shapeCast S1x128 x6 shapeCasts_S128_S1x128) broadcasts_S1x128_S5000x128 (ix2 p q) = x6 (ix1 q) :=
    (broadcastTo_1b_ab_apply _ broadcasts_S1x128_S5000x128 p q).trans (shapeCast_a_1a_apply x6 shapeCasts_S128_S1x128 0 q)
  show max (matmul (F := Ideal) Dk none (truncf .bf16 x0 bitsLt_bf16_f32)
      (transpose S128x128 [1, 0] (truncf .bf16 x2 bitsLt_bf16_f32) transposes_S128x128_p1_0_S128x128)
      (constant S5000x128 .f32 0x00000000#32) (ix2 p q)
      + broadcastTo S5000x128 (shapeCast S1x128 x6 shapeCasts_S128_S1x128) broadcasts_S1x128_S5000x128 (ix2 p q)) zero = _
  rw [hM, hB]

end Cert.KernelIdeal.Hand

end
-- ==== Proof.Reg0.lean ====
/-
  The first region's result array.  The grid has twenty points; point `t` reads rows `5000 t … 5000 t + 4999` of the
  node features, the whole weight matrix and the whole bias, and writes back rows `5000 t … 5000 t + 4999` of the
  result.  What it writes is stage one of the layer on its block of rows, which is the block of stage one of the whole
  array; the twenty blocks cover the array, so the array ends holding stage one of the arrays the region found.
-/
import proofs.«166060_j59846074302804_1_alg».proof.Proof.Gen.KernelIdeal.Frame
import proofs.«166060_j59846074302804_1_alg».proof.Proof.Pay0
import proofs.«166060_j59846074302804_1_alg».proof.Proof.SpecBlock
import Idealize.ShloMosaic.Lib.Pipeline.Value

set_option maxRecDepth 16384

noncomputable section

namespace Cert.KernelIdeal.Hand

open Cert.KernelIdeal Cert.KernelIdeal.Gen Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zz2 : (![0, 0] : Fin 2 → Nat) = fun _ => 0 := funext fun a => by fin_cases a <;> rfl
theorem zz1 : (![0] : Fin 1 → Nat) = fun _ => 0 := funext fun a => by fin_cases a; rfl

/-- The printed index maps over the grid: the row-blocked windows sit at block `t`, the others at block zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The feature window's block at point `t` is rows `5000 t …` of the array. -/
theorem iblk0_0_apply (c : Dev nD) (t : Fin cfg0.N) (x : S5000x128.Idx) (k : S100000x128.Idx)
    (hk0 : (k 0).val = t.val * 5000 + (x 0).val) (hk1 : (k 1).val = (x 1).val) :
    (iblk0 V c 0 t : Vec Ideal S5000x128 .f32) x = (V c main_arg0 : S100000x128.Idx → EReal) k := by
  obtain ⟨e0, e1, -⟩ := idx0 t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * (x 0).val = (k 0).val; rw [e0, hk0]; omega
  | ⟨1, _⟩ => show win0_0.index t (1 : Fin 2) * 128 + 1 * (x 1).val = (k 1).val; rw [e1, hk1]; omega

/-- The weight window's block is the whole matrix. -/
theorem iblk0_1_eq (c : Dev nD) (t : Fin cfg0.N) :
    (iblk0 V c 1 t : Vec Ideal S128x128 .f32) = (V c main_arg3 : S128x128.Idx → EReal) := by
  obtain ⟨-, -, e2, e3, -⟩ := idx0 t
  funext x
  unfold iblk0
  rw [View.read_apply]
  show V c main_arg3 _ = V c main_arg3 _
  refine congrArg (V c main_arg3) (funext fun a => Fin.ext ?_)
  match a with
  | ⟨0, _⟩ => show win0_1.index t (0 : Fin 2) * 128 + 1 * (x 0).val = (x 0).val; rw [e2]; omega
  | ⟨1, _⟩ => show win0_1.index t (1 : Fin 2) * 128 + 1 * (x 1).val = (x 1).val; rw [e3]; omega

/-- The bias window's block is the whole vector. -/
theorem iblk0_2_eq (c : Dev nD) (t : Fin cfg0.N) :
    (iblk0 V c 2 t : Vec Ideal S128 .f32) = (V c main_arg4 : S128.Idx → EReal) := by
  obtain ⟨-, -, -, -, e4, -⟩ := idx0 t
  funext x
  unfold iblk0
  rw [View.read_apply]
  show V c main_arg4 _ = V c main_arg4 _
  refine congrArg (V c main_arg4) (funext fun a => Fin.ext ?_)
  match a with
  | ⟨0, _⟩ => show win0_2.index t (0 : Fin 1) * 128 + 1 * (x 0).val = (x 0).val; rw [e4]; omega

/-- What point `t` writes back is block `t` of stage one of the arrays the region found. -/
theorem flushed0_eq (c : Dev nD) (t : Fin cfg0.N) :
    (dat0 V c).flushed 3 t = ((cfg0.win 3).blk t).view.read (Elt Ideal)
      (proj (n := 100000) (V c main_arg0) (V c main_arg3) (V c main_arg4)) := by
  show (cfg0.win 3).cut (grid0.coords t) ((dat0 V c).after 3 t) = _
  rw [after0_3]
  unfold out0_3
  rw [View.canon_unit_zero zz2]
  simp only [View.ld_unit_zero (S := S5000x128) zz2, View.ld_unit_zero (S := S128x128) zz2, View.ld_unit_zero (S := S128) zz1]
  rw [pay0_eq, iblk0_1_eq, iblk0_2_eq]
  obtain ⟨-, -, -, -, -, e5, e6⟩ := idx0 t
  funext y
  rw [View.read_apply]
  refine proj_block (n := 5000) (n' := 100000) _ _ _ _ y _ ?_ fun k => ?_
  · show (y 1).val = win0_3.index t (1 : Fin 2) * 128 + 1 * (y 1).val
    rw [e6]; omega
  · refine iblk0_0_apply V c t _ _ ?_ rfl
    show win0_3.index t (0 : Fin 2) * 5000 + 1 * (y 0).val = t.val * 5000 + (y 0).val
    rw [e5]; omega

/-- An index of the result array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v0).slice (win0_3.rect t)).set ↔ _
  rw [View.set_slice_whole, Rect.mem_set_unit]
  exact Iff.rfl

/-- Row `r` is in the block of point `r / 5000`. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, e5, e6⟩ := idx0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e5]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e6]; omega

/-- The first region's result array after the region: stage one of the arrays the region found. -/
theorem final0 (c : Dev nD) :
    (dat0 V c).arrAt 3 cfg0.N = proj (n := 100000) (V c main_arg0) (V c main_arg3) (V c main_arg4) :=
  (dat0 V c).arrAt_eq_of_cover 3 _ (fun t _ => flushed0_eq V c t) cover0

end Cert.KernelIdeal.Hand

end
-- ==== Proof.Chain.lean ====
/-
  The host operations between the two regions, as functions of what they read.  The source index is normalized (a
  negative index has the number of source nodes added), the projected source rows are gathered along the edges and
  scaled by the edge weights, and the scaled rows are summed into their destination rows; the edge weights are summed
  into their destination nodes the same way and kept as a column; the second-stage weight matrix is cut into its left
  and right square halves.  The gather and the two scatter-sums are never opened: the reference applies the same
  operations to the same operands.
-/
import proofs.«166060_j59846074302804_1_alg».proof.Proof.Gen.KernelIdeal
import Idealize.ShloMosaic.PureOps.Ideal

noncomputable section

namespace Cert.KernelIdeal.Hand

open Cert.KernelIdeal Cert.KernelIdeal.Gen Idealize.ShloMosaic

/-- The weighted source rows summed into their destination rows. -/
def aggOf (n : (⟨S100000x128, .f32⟩ : BufTy).Contents (Elt Ideal)) (x2 : (⟨S1600000, .f32⟩ : BufTy).Contents (Elt Ideal))
    (x7 x8 : (⟨S1600000, .i32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 x8)
    (mulf (F := Ideal)
      (Host.gather gather_S100000x128_S1600000x1_S1600000x128_1_0_n_n_0_1_1128 n
        (broadcastInDim S1600000x1 ![0] bcast_S1600000_S1600000x1_0
          (select (cmpi .slt x7 (broadcastInDim S1600000 ![] bcast_S_S1600000 (constantI S_ 32 0#32)))
            (addi x7 (broadcastInDim S1600000 ![] bcast_S_S1600000 (constantI S_ 32 100000#32))) x7)))
      (broadcastInDim S1600000x128 ![0, 1] bcast_S1600000x1_S1600000x128_0_1
        (broadcastInDim S1600000x1 ![0] bcast_S1600000_S1600000x1_0 x2)))

/-- The edge weights summed into their destination nodes. -/
def wsOf (x2 : (⟨S1600000, .f32⟩ : BufTy).Contents (Elt Ideal)) (x8 : (⟨S1600000, .i32⟩ : BufTy).Contents (Elt Ideal)) :
    (⟨S100000, .f32⟩ : BufTy).Contents (Elt Ideal) :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 x8) x2

/-- The same as a column. -/
def wsCol (x2 : (⟨S1600000, .f32⟩ : BufTy).Contents (Elt Ideal)) (x8 : (⟨S1600000, .i32⟩ : BufTy).Contents (Elt Ideal)) :
    (⟨S100000x1, .f32⟩ : BufTy).Contents (Elt Ideal) :=
  broadcastInDim S100000x1 ![0] bcast_S100000_S100000x1_0 (wsOf x2 x8)

/-- The left and right square halves of the second-stage weight matrix. -/
def w1Of (x5 : (⟨S128x256, .f32⟩ : BufTy).Contents (Elt Ideal)) : (⟨S128x128, .f32⟩ : BufTy).Contents (Elt Ideal) :=
  extractStridedSlice S128x128 ![0, 0] x5 slices_S128x256_S128x128_0_0
def w2Of (x5 : (⟨S128x256, .f32⟩ : BufTy).Contents (Elt Ideal)) : (⟨S128x128, .f32⟩ : BufTy).Contents (Elt Ideal) :=
  extractStridedSlice S128x128 ![0, 128] x5 slices_S128x256_S128x128_0_128

end Cert.KernelIdeal.Hand

end
-- ==== Proof.Between.lean ====
/-
  The arrays the second region finds.  Between the regions the host operations read the first region's result array
  and the arguments; nothing else has changed since the launch.  So the second region's six input arrays are: the
  weighted-sum array of the first region's result (stage one of the arguments), the weight-sum column, the
  destination features, the two halves of the weight matrix, and the bias.
-/
import proofs.«166060_j59846074302804_1_alg».proof.Proof.Gen.KernelIdeal.Frame
import proofs.«166060_j59846074302804_1_alg».proof.Proof.Reg0
import proofs.«166060_j59846074302804_1_alg».proof.Proof.Chain
import Idealize.ShloMosaic.Lib.StableHlo.Run

set_option maxRecDepth 16384

noncomputable section

namespace Cert.KernelIdeal.Hand

open Cert.KernelIdeal Cert.KernelIdeal.Gen Cert.Sage
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- After the first region its result array holds stage one of the arguments. -/
theorem W1_v0 (c : Dev nD) :
    W1 m ρ c (Proc.devRef .tc main_v0)
      = proj (n := 100000) (m ((c : Thread nD τ).loc main_arg0)) (m ((c : Thread nD τ).loc main_arg3)) (m ((c : Thread nD τ).loc main_arg4)) :=
  (W1_arr m ρ c 3).trans (final0 (V0 m ρ) c)

/-- The first region leaves the other arguments as launched. -/
theorem W1_arg1 (c : Dev nD) : W1 m ρ c (Proc.devRef .tc main_arg1) = m ((c : Thread nD τ).loc main_arg1) :=
  W1_of_ne m ρ c main_arg1 (by decide)
theorem W1_arg2 (c : Dev nD) : W1 m ρ c (Proc.devRef .tc main_arg2) = m ((c : Thread nD τ).loc main_arg2) :=
  W1_of_ne m ρ c main_arg2 (by decide)
theorem W1_arg5 (c : Dev nD) : W1 m ρ c (Proc.devRef .tc main_arg5) = m ((c : Thread nD τ).loc main_arg5) :=
  W1_of_ne m ρ c main_arg5 (by decide)
theorem W1_arg6 (c : Dev nD) : W1 m ρ c (Proc.devRef .tc main_arg6) = m ((c : Thread nD τ).loc main_arg6) :=
  W1_of_ne m ρ c main_arg6 (by decide)
theorem W1_arg7 (c : Dev nD) : W1 m ρ c (Proc.devRef .tc main_arg7) = m ((c : Thread nD τ).loc main_arg7) :=
  W1_of_ne m ρ c main_arg7 (by decide)
theorem W1_arg8 (c : Dev nD) : W1 m ρ c (Proc.devRef .tc main_arg8) = m ((c : Thread nD τ).loc main_arg8) :=
  W1_of_ne m ρ c main_arg8 (by decide)

/-- The aggregated array the second region finds. -/
theorem V2_v13 (c : Dev nD) :
    V2 m ρ c main_v13
      = aggOf (proj (n := 100000) (m ((c : Thread nD τ).loc main_arg0)) (m ((c : Thread nD τ).loc main_arg3)) (m ((c : Thread nD τ).loc main_arg4)))
          (m ((c : Thread nD τ).loc main_arg2)) (m ((c : Thread nD τ).loc main_arg7)) (m ((c : Thread nD τ).loc main_arg8)) := by
  rw [← W1_v0 m ρ c, ← W1_arg2 m ρ c, ← W1_arg7 m ρ c, ← W1_arg8 m ρ c]
  show StableHlo.after hostOps1 (W1 m ρ c) (Proc.devRef .tc main_v13) = _
  generalize W1 m ρ c = W
  after_results
  rfl

/-- The weight-sum column the second region finds. -/
theorem V2_v17 (c : Dev nD) :
    V2 m ρ c main_v17 = wsCol (m ((c : Thread nD τ).loc main_arg2)) (m ((c : Thread nD τ).loc main_arg8)) := by
  rw [← W1_arg2 m ρ c, ← W1_arg8 m ρ c]
  show StableHlo.after hostOps1 (W1 m ρ c) (Proc.devRef .tc main_v17) = _
  generalize W1 m ρ c = W
  after_results
  rfl

/-- The two halves of the weight matrix. -/
theorem V2_v18 (c : Dev nD) : V2 m ρ c main_v18 = w1Of (m ((c : Thread nD τ).loc main_arg5)) := by
  rw [← W1_arg5 m ρ c]
  show StableHlo.after hostOps1 (W1 m ρ c) (Proc.devRef .tc main_v18) = _
  generalize W1 m ρ c = W
  after_results
  rfl
theorem V2_v19 (c : Dev nD) : V2 m ρ c main_v19 = w2Of (m ((c : Thread nD τ).loc main_arg5)) := by
  rw [← W1_arg5 m ρ c]
  show StableHlo.after hostOps1 (W1 m ρ c) (Proc.devRef .tc main_v19) = _
  generalize W1 m ρ c = W
  after_results
  rfl

/-- The destination features and the bias, as launched. -/
theorem V2_arg1 (c : Dev nD) : V2 m ρ c main_arg1 = m ((c : Thread nD τ).loc main_arg1) := by
  rw [← W1_arg1 m ρ c]
  show StableHlo.after hostOps1 (W1 m ρ c) (Proc.devRef .tc main_arg1) = _
  generalize W1 m ρ c = W
  after_results
theorem V2_arg6 (c : Dev nD) : V2 m ρ c main_arg6 = m ((c : Thread nD τ).loc main_arg6) := by
  rw [← W1_arg6 m ρ c]
  show StableHlo.after hostOps1 (W1 m ρ c) (Proc.devRef .tc main_arg6) = _
  generalize W1 m ρ c = W
  after_results

end Cert.KernelIdeal.Hand

end
-- ==== Proof.KValue.lean ====
/-
  The idealized kernel program's result.  The second region's result array ends holding stage two of the arrays that
  region found, which the host operations computed from the first region's result, stage one of the arguments: so
  every weakly fair execution of the program ends with its result array at stage two of the weighted sums of stage one
  of the arguments, the arguments unchanged.
-/
import proofs.«166060_j59846074302804_1_alg».proof.Proof.KRun
import proofs.«166060_j59846074302804_1_alg».proof.Proof.Reg1
import proofs.«166060_j59846074302804_1_alg».proof.Proof.Between

set_option maxRecDepth 16384

noncomputable section

namespace Cert.KernelIdeal.Hand

open Cert.KernelIdeal Cert.KernelIdeal.Gen Cert.Sage
open Idealize.ShloMosaic Idealize.ShloMosaic.TcCoe Idealize.SL.Sem

variable (m : (ℓ : Loc nD τ sig) → Buf (Elt Ideal) ℓ) (ρ : Dev nD → PrngReg)

/-- The layer as one function of the nine arguments. -/
def layer (x0 x1 : (⟨S100000x128, .f32⟩ : BufTy).Contents (Elt Ideal)) (x2 : (⟨S1600000, .f32⟩ : BufTy).Contents (Elt Ideal))
    (x3 : (⟨S128x128, .f32⟩ : BufTy).Contents (Elt Ideal)) (x4 : (⟨S128, .f32⟩ : BufTy).Contents (Elt Ideal))
    (x5 : (⟨S128x256, .f32⟩ : BufTy).Contents (Elt Ideal)) (x6 : (⟨S128, .f32⟩ : BufTy).Contents (Elt Ideal))
    (x7 x8 : (⟨S1600000, .i32⟩ : BufTy).Contents (Elt Ideal)) : (⟨S100000x128, .f32⟩ : BufTy).Contents (Elt Ideal) :=
  out (n := 100000) (aggOf (proj (n := 100000) x0 x3 x4) x2 x7 x8) (wsCol x2 x8) x1 (w1Of x5) (w2Of x5) x6

/-- The result array at the last segment boundary is the layer of the arguments. -/
theorem result_eq (c : Dev nD) :
    W3 m ρ c (Proc.devRef .tc main_v20)
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  refine (W3_arr m ρ c 6).trans ((final1 (V2 m ρ) c).trans ?_)
  rw [V2_v13, V2_v17, V2_arg1, V2_v18, V2_v19, V2_arg6]
  rfl

/-- The run, read: the result array at the layer of the arguments, the arguments unchanged. -/
theorem run : θ_run defs (onTc (τ := τ) (main (F := Ideal))) ⟨m, fun _ => 0, ρ⟩ (fun r => ∀ c : Dev nD,
      r.2.mem ((c.tc : Thread nD τ).loc main_v20)
        = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (run_named m ρ)

end Cert.KernelIdeal.Hand

end
-- ==== Proof.Ref.lean ====
/-
  The reference, read index by index.  Its first dense layer is stage one of the layer; its gather and scatter-sums
  are the host operations the kernel program applies between its regions, applied to the same operands; its second
  dense layer multiplies the concatenation of the normalized aggregate and the destination features by the transpose
  of the whole weight matrix, a sum over 256 terms whose first 128 come from the left half of the matrix and whose
  last 128 come from the right half: the two sums of stage two.  The row norm is the root of the sum of squares
  from zero, replaced by one where zero; the result is the row divided by it.
-/
import proofs.«166060_j59846074302804_1_alg».proof.Proof.Gen.ReferenceIdeal.Read
import proofs.«166060_j59846074302804_1_alg».proof.Proof.Spec
import proofs.«166060_j59846074302804_1_alg».proof.Proof.Chain
import Idealize.ShloMosaic.Lib.Pipeline.Value
import Idealize.ShloMosaic.Lib.ValueLayout

noncomputable section

namespace Cert.ReferenceIdeal.Hand

open Cert.ReferenceIdeal Cert.ReferenceIdeal.Gen Cert.ReferenceIdeal.Read Cert.Sage Cert.KernelIdeal.Hand
open Idealize.ShloMosaic Idealize.ShloMosaic.ValueIdx

variable (x0 x1 : (⟨S100000x128, .f32⟩ : BufTy).Contents (Elt Ideal)) (x2 : (⟨S1600000, .f32⟩ : BufTy).Contents (Elt Ideal))
  (x3 : (⟨S128x128, .f32⟩ : BufTy).Contents (Elt Ideal)) (x4 : (⟨S128, .f32⟩ : BufTy).Contents (Elt Ideal))
  (x5 : (⟨S128x256, .f32⟩ : BufTy).Contents (Elt Ideal)) (x6 : (⟨S128, .f32⟩ : BufTy).Contents (Elt Ideal))
  (x7 x8 : (⟨S1600000, .i32⟩ : BufTy).Contents (Elt Ideal))

/-! ## Stage one -/

/-- The reference's first layer is stage one of the layer. -/
theorem ref_proj : val_main_v5 (F := Ideal) x0 x3 x4 = proj (n := 100000) x0 x3 x4 := by
  funext i
  obtain ⟨r, j, rfl⟩ : ∃ (r : Fin 100000) (j : Fin 128), i = ix2 r j := ⟨i 0, i 1, eq_ix2 i⟩
  rw [proj_ix2]
  unfold projAt
  rw [val_main_v5_apply, val_main_v4_apply, val_main_v1_apply, val_main_v3_apply, val_main_v2_apply,
    val_main_call0_v0_apply, val_main_call0_cst_apply]
  simp only [val_main_v0_apply]
  have e1 : ∀ k : Fin 128, lidx_main_v1 (ix2 r j) k = ix2 r k := fun k => funext fun a => Fin.ext (by
    match a with | ⟨0, _⟩ => rfl | ⟨1, _⟩ => rfl)
  have e2 : ∀ k : Fin 128, idx_main_v0 (ridx_main_v1 (ix2 r j) k) = ix2 j k := fun k => funext fun a => Fin.ext (by
    match a with | ⟨0, _⟩ => rfl | ⟨1, _⟩ => rfl)
  have e3 : idx_main_v2 (idx_main_v3 (ix2 r j)) = ix1 j := funext fun a => Fin.ext (by
    match a with | ⟨0, _⟩ => rfl)
  simp only [e1, e2, e3]
  rfl

/-! ## The host operations in between -/

/-- The reference's weighted sum is the kernel program's, of the reference's first layer. -/
theorem ref_agg : val_main_v18 (F := Ideal) x0 x2 x3 x4 x7 x8 = aggOf (val_main_v5 (F := Ideal) x0 x3 x4) x2 x7 x8 := by
  unfold val_main_v18 val_main_v17 val_main_v16 val_main_cst val_main_v15 val_main_v14 val_main_v13 val_main_v12
    val_main_v11 val_main_v10 val_main_v9 val_main_v8 val_main_c_0 val_main_v7 val_main_v6 val_main_c aggOf
  rfl

/-- The reference's weight sum is the kernel program's. -/
theorem ref_ws : val_main_v21 (F := Ideal) x2 x8 = wsOf x2 x8 := by
  unfold val_main_v21 val_main_v20 val_main_v19 val_main_cst_1 wsOf
  rfl

/-! ## Stage two -/

/-- The clamped weight sum broadcast along a row. -/
theorem ref_den (r : Fin 100000) (k : Fin 128) :
    val_main_v25 (F := Ideal) x2 x8 (ix2 r k) = max (wsCol x2 x8 (ix2 r (0 : Fin 1))) one := by
  have ec : wsCol x2 x8 (ix2 r (0 : Fin 1)) = wsOf x2 x8 (ix1 r) := by
    unfold wsCol
    exact broadcastInDim_apply _ _ (wsOf x2 x8) (ix2 r (0 : Fin 1)) (ix1 r) (fun a => match a with
      | ⟨0, _⟩ => by show r.val = if (100000 : Nat) = 1 then 0 else r.val; rw [if_neg (by decide)])
  rw [ec, val_main_v25_apply, val_main_v24_apply, val_main_v23_apply, val_main_v22_apply, val_main_cst_2_apply, ref_ws]
  have e : idx_main_v24 (idx_main_v25 (ix2 r k)) = ix1 r := funext fun a => Fin.ext (by
    match a with | ⟨0, _⟩ => rfl)
  rw [e]
  rfl

/-- The normalized aggregate at an entry. -/
theorem ref_quot (r : Fin 100000) (k : Fin 128) :
    val_main_v26 (F := Ideal) x0 x2 x3 x4 x7 x8 (ix2 r k)
      = Ideal.div (aggOf (proj (n := 100000) x0 x3 x4) x2 x7 x8 (ix2 r k)) (max (wsCol x2 x8 (ix2 r (0 : Fin 1))) one) := by
  rw [val_main_v26_apply, ref_den, ref_agg, ref_proj]
  rfl

/-- The concatenation along the columns: the first 128 columns are the normalized aggregate, -/
theorem ref_cat_left (r : Fin 100000) (k : Fin 128) :
    val_main_v27 (F := Ideal) x0 x1 x2 x3 x4 x7 x8 (ix2 r (⟨k.val, Nat.lt_of_lt_of_le k.isLt (by decide)⟩ : Fin 256))
      = val_main_v26 (F := Ideal) x0 x2 x3 x4 x7 x8 (ix2 r k) := by
  unfold val_main_v27
  exact concatenate_pair_apply_left (t := S100000x256) (s₁ := S100000x128) (s₂ := S100000x128) (1 : Fin 2) _ _ concatenates_S100000x128_S100000x128_S100000x256_d1
    (ix2 r (⟨k.val, Nat.lt_of_lt_of_le k.isLt (by decide)⟩ : Fin 256)) rfl (ix2 r k)
    (fun b => match b with | ⟨0, _⟩ => rfl | ⟨1, _⟩ => rfl)

/-- and the last 128 the destination features. -/
theorem ref_cat_right (r : Fin 100000) (k : Fin 128) :
    val_main_v27 (F := Ideal) x0 x1 x2 x3 x4 x7 x8 (ix2 r (⟨128 + k.val, by have := k.isLt; omega⟩ : Fin 256))
      = x1 (ix2 r k) := by
  unfold val_main_v27
  exact concatenate_pair_apply_right (t := S100000x256) (s₁ := S100000x128) (s₂ := S100000x128) (1 : Fin 2) _ _ concatenates_S100000x128_S100000x128_S100000x256_d1
    (ix2 r (⟨128 + k.val, by have := k.isLt; omega⟩ : Fin 256)) rfl rfl (ix2 r k)
    (fun b hb => match b with | ⟨0, _⟩ => rfl | ⟨1, _⟩ => absurd rfl hb) (by show k.val + 128 = 128 + k.val; omega)

/-- The weight matrix's two halves, at an entry. -/
theorem w1Of_apply (j k : Fin 128) :
    w1Of x5 (ix2 j k) = x5 (ix2 j (⟨k.val, Nat.lt_of_lt_of_le k.isLt (by decide)⟩ : Fin 256)) := by
  unfold w1Of
  exact slice2_axis1_apply 0 x5 _ j k _ (by show k.val = 0 + k.val; omega)
theorem w2Of_apply (j k : Fin 128) :
    w2Of x5 (ix2 j k) = x5 (ix2 j (⟨128 + k.val, by have := k.isLt; omega⟩ : Fin 256)) := by
  unfold w2Of
  exact slice2_axis1_apply 128 x5 _ j k _ rfl

/-- The reference before the normalization, at an entry, is stage two's. -/
theorem ref_z (r : Fin 100000) (j : Fin 128) :
    val_main_v33 (F := Ideal) x0 x1 x2 x3 x4 x5 x6 x7 x8 (ix2 r j)
      = zAt (n := 100000) (aggOf (proj (n := 100000) x0 x3 x4) x2 x7 x8) (wsCol x2 x8) x1 (w1Of x5) (w2Of x5) x6 r j := by
  unfold zAt
  rw [val_main_v33_apply, val_main_v32_apply, val_main_v29_apply, val_main_v31_apply, val_main_v30_apply,
    val_main_call1_v0_apply, val_main_call1_cst_apply]
  simp only [val_main_v28_apply]
  have e1 : ∀ k : Fin 256, lidx_main_v29 (ix2 r j) k = ix2 r k := fun k => funext fun a => Fin.ext (by
    match a with | ⟨0, _⟩ => rfl | ⟨1, _⟩ => rfl)
  have e2 : ∀ k : Fin 256, idx_main_v28 (ridx_main_v29 (ix2 r j) k) = ix2 j k := fun k => funext fun a => Fin.ext (by
    match a with | ⟨0, _⟩ => rfl | ⟨1, _⟩ => rfl)
  have e3 : idx_main_v30 (idx_main_v31 (ix2 r j)) = ix1 j := funext fun a => Fin.ext (by
    match a with | ⟨0, _⟩ => rfl)
  simp only [e1, e2, e3]
  rw [sum_halves]
  simp only [ref_cat_left, ref_cat_right, ref_quot, w1Of_apply, w2Of_apply]
  rfl

/-- The sum of a row's squares from zero, in the reference. -/
theorem ref_sq (r : Fin 100000) :
    val_main_call2_v1 (F := Ideal) x0 x1 x2 x3 x4 x5 x6 x7 x8 (ix1 r)
      = ∑ j : Fin 128, zAt (n := 100000) (aggOf (proj (n := 100000) x0 x3 x4) x2 x7 x8) (wsCol x2 x8) x1 (w1Of x5) (w2Of x5) x6 r j
          * zAt (n := 100000) (aggOf (proj (n := 100000) x0 x3 x4) x2 x7 x8) (wsCol x2 x8) x1 (w1Of x5) (w2Of x5) x6 r j := by
  refine (val_main_call2_v1_apply x0 x1 x2 x3 x4 x5 x6 x7 x8 (ix1 r)).trans ?_
  refine (congrArg₂ (· + ·) Ideal.ofBits_zero_f32 (Finset.sum_congr rfl fun k _ => ?_)).trans (zero_add _)
  have e : idx_main_call2_v1 (ix1 r) k = ix2 r k := funext fun a => Fin.ext (by
    match a with | ⟨0, _⟩ => rfl | ⟨1, _⟩ => rfl)
  rw [e, val_main_call2_v0_apply, ref_z]
  rfl

/-- The root of it. -/
theorem ref_root (r : Fin 100000) :
    val_main_v34 (F := Ideal) x0 x1 x2 x3 x4 x5 x6 x7 x8 (ix2 r (0 : Fin 1))
      = Ideal.sqrt (∑ j : Fin 128, zAt (n := 100000) (aggOf (proj (n := 100000) x0 x3 x4) x2 x7 x8) (wsCol x2 x8) x1 (w1Of x5) (w2Of x5) x6 r j
          * zAt (n := 100000) (aggOf (proj (n := 100000) x0 x3 x4) x2 x7 x8) (wsCol x2 x8) x1 (w1Of x5) (w2Of x5) x6 r j) := by
  have e : idx_main_call2_v2 (ix2 r (0 : Fin 1)) = ix1 r := funext fun a => Fin.ext (by
    match a with | ⟨0, _⟩ => rfl)
  rw [val_main_v34_apply, val_main_call2_v2_apply, e, ref_sq, Ideal.hostUnary_sqrt_def]

/-- The reference's row norm, one where zero, is stage two's. -/
theorem ref_nrm (r : Fin 100000) :
    val_main_v37 (F := Ideal) x0 x1 x2 x3 x4 x5 x6 x7 x8 (ix2 r (0 : Fin 1))
      = nrmAt (n := 100000) (aggOf (proj (n := 100000) x0 x3 x4) x2 x7 x8) (wsCol x2 x8) x1 (w1Of x5) (w2Of x5) x6 r := by
  unfold nrmAt
  rw [val_main_v37_apply, val_main_v36_apply, ref_root, val_main_v35_apply, val_main_cst_3_apply, val_main_call3_v1_apply,
    val_main_call3_v0_apply]
  rfl

/-- THE REFERENCE'S RESULT: stage two of the layer, of the weighted sums of stage one of the arguments. -/
theorem ref_out :
    val_main_v39 (F := Ideal) x0 x1 x2 x3 x4 x5 x6 x7 x8
      = out (n := 100000) (aggOf (proj (n := 100000) x0 x3 x4) x2 x7 x8) (wsCol x2 x8) x1 (w1Of x5) (w2Of x5) x6 := by
  funext i
  obtain ⟨r, j, rfl⟩ : ∃ (r : Fin 100000) (j : Fin 128), i = ix2 r j := ⟨i 0, i 1, eq_ix2 i⟩
  rw [out_ix2]
  unfold outAt
  rw [val_main_v39_apply, val_main_v38_apply, ref_z]
  have e : idx_main_v38 (ix2 r j) = ix2 r (0 : Fin 1) := funext fun a => Fin.ext (by
    match a with | ⟨0, _⟩ => rfl | ⟨1, _⟩ => rfl)
  rw [e, ref_nrm]
  rfl

end Cert.ReferenceIdeal.Hand

end
-- ==== Proof.lean ====
/-
  A weighted graph-convolution layer as two grid kernels with the edge gather and the scatter-sums on the host between
  them, against its plain reference, over the extended reals.

  Both programs compute: stage one, `n = max (h_src · Q_wᵀ + Q_b) 0`; along the edges, the rows of `n` at the source
  indices scaled by the edge weights and summed into their destination rows, and the edge weights summed into their
  destination nodes; stage two, `z = max ((agg / max ws 1) · W1ᵀ + h_dst · W2ᵀ + W_b) 0` with `W1`, `W2` the left and
  right halves of `W_w`, and each row of `z` divided by its Euclidean norm, the norm replaced by one where it is zero.
  The kernel program multiplies by the two halves separately; the reference multiplies the concatenation of the
  normalized aggregate and `h_dst` by the whole of `W_wᵀ`, a sum over 256 terms that splits into the same two sums
  (only commutativity and associativity of addition are used, so no finiteness of the inputs is needed).  The edge
  operations are the same operations on the same operands in both programs and are never opened.  The changes of float
  format on the way into the matrix unit are the identity on the extended reals, the kernel's and the host's quotient,
  square root and comparison are one function each.

  The frames of the two kernel programs are the generated ones; the reference's frame is its generated run with the
  result dropped; the ideal pass rewrote nothing, so `preserves` is trivial.
-/
import proofs.«166060_j59846074302804_1_alg».proof.Defs
import proofs.«166060_j59846074302804_1_alg».proof.Proof.Gen.Kernel
import proofs.«166060_j59846074302804_1_alg».proof.Proof.Gen.Kernel.Skeleton
import proofs.«166060_j59846074302804_1_alg».proof.Proof.Gen.Kernel.Launch
import proofs.«166060_j59846074302804_1_alg».proof.Proof.Gen.Kernel.Points
import proofs.«166060_j59846074302804_1_alg».proof.Proof.Gen.Kernel.Frame
import proofs.«166060_j59846074302804_1_alg».proof.Proof.Gen.KernelIdeal
import proofs.«166060_j59846074302804_1_alg».proof.Proof.Gen.KernelIdeal.Skeleton
import proofs.«166060_j59846074302804_1_alg».proof.Proof.Gen.KernelIdeal.Launch
import proofs.«166060_j59846074302804_1_alg».proof.Proof.Gen.KernelIdeal.Points
import proofs.«166060_j59846074302804_1_alg».proof.Proof.Gen.KernelIdeal.Frame
import proofs.«166060_j59846074302804_1_alg».proof.Proof.Gen.ReferenceIdeal
import proofs.«166060_j59846074302804_1_alg».proof.Proof.Gen.ReferenceIdeal.Run
import proofs.«166060_j59846074302804_1_alg».proof.Proof.Gen.ReferenceIdeal.Read
import proofs.«166060_j59846074302804_1_alg».proof.Proof.Gen.Pre_finite_inputs
import proofs.«166060_j59846074302804_1_alg».proof.Proof.KValue
import proofs.«166060_j59846074302804_1_alg».proof.Proof.Ref
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the layer of the arguments in their result arrays. -/
theorem algebraic : Cert.algebraic_KernelIdeal_ReferenceIdeal := by
  intro m ρ m' ρ' _ hagree
  refine ⟨fun c => Cert.KernelIdeal.Hand.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KernelIdeal.Hand.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7, a8⟩ := hagree c
  rw [(h c).1, Cert.ReferenceIdeal.Read.val_main_v39_eq, Cert.ReferenceIdeal.Hand.ref_out, a0, a1, a2, a3, a4, a5, a6, a7, a8]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
